-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x20 : Shape := ⟨2, ![128, 20]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x20 : S_.BroadcastsInDim S128x20 (![] : Fin 0 → Fin S128x20.rank)
  reducesTo_S128x20_S_d0_1 : S128x20.ReducesTo [0, 1] S_

variable [Facts]

def fn_part1 {F : FTy → Type} [FloatOps F] (main_arg5 : FVec F S128x20 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x20 .f32 := Host.absf main_arg5
  let main_cst_6 : FVec F S_ .f32 := constant S_ .f32 0x7F800000#32
  let main_v20 : FVec F S128x20 .f32 := broadcastInDim S128x20 ![] bcast_S_S128x20 main_cst_6
  let main_v21 : IVec S128x20 1 := cmpf .olt main_v19 main_v20
  let main_c_7 : IVec S_ 1 := constantI S_ 1 1#1
  let main_v22 : IVec S_ 1 := (fun x v => Host.reduce IntOp.andi x v reducesTo_S128x20_S_d0_1 h_S_) main_v21 main_c_7
  let main_v23 : IVec S_ 1 := andi main_v18 main_v22
  main_v23

def fn {F : FTy → Type} [FloatOps F] (main_arg0 : FVec F S100000x128 .f32) (main_arg1 : IVec S2x625000 32) (main_arg2 : FVec F S128x128 .f32) (main_arg3 : FVec F S128 .f32) (main_arg4 : FVec F S128x128 .f32) (main_arg5 : FVec F S128x20 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x20 : Shape := ⟨2, ![128, 20]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S20 : Shape := ⟨1, ![20]⟩
abbrev S1x20 : Shape := ⟨2, ![1, 20]⟩
abbrev S1x128 : Shape := ⟨2, ![1, 128]⟩
abbrev S100000x20 : Shape := ⟨2, ![100000, 20]⟩
abbrev S5000x128 : Shape := ⟨2, ![5000, 128]⟩
abbrev S5000x20 : Shape := ⟨2, ![5000, 20]⟩
abbrev S5000 : Shape := ⟨1, ![5000]⟩
abbrev S5000x1 : Shape := ⟨2, ![5000, 1]⟩

abbrev nBuf : Space → Nat
  | .hbm => 47
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x20, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S_, .f32⟩
  | .hbm, ⟨24, _⟩ => ⟨S625000, .f32⟩
  | .hbm, ⟨25, _⟩ => ⟨S_, .f32⟩
  | .hbm, ⟨26, _⟩ => ⟨S100000, .f32⟩
  | .hbm, ⟨27, _⟩ => ⟨S625000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x20, .f32⟩
  | .hbm, ⟨36, _⟩ => ⟨S_, .f32⟩
  | .hbm, ⟨37, _⟩ => ⟨S20, .f32⟩
  | .hbm, ⟨38, _⟩ => ⟨S1x20, .f32⟩
  | .hbm, ⟨39, _⟩ => ⟨S1x20, .f32⟩
  | .hbm, ⟨40, _⟩ => ⟨S_, .f32⟩
  | .hbm, ⟨41, _⟩ => ⟨S1x20, .f32⟩
  | .hbm, ⟨42, _⟩ => ⟨S1x20, .f32⟩
  | .hbm, ⟨43, _⟩ => ⟨S128x20, .f32⟩
  | .hbm, ⟨44, _⟩ => ⟨S128x20, .f32⟩
  | .hbm, ⟨45, _⟩ => ⟨S1x128, .f32⟩
  | .hbm, ⟨46, _⟩ => ⟨S100000x20, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x20, .f32⟩
  | .local _ .vmem, ⟨8, _⟩ => ⟨S5000x20, .f32⟩
  | .local _ .vmem, ⟨9, _⟩ => ⟨S5000x20, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  reducesTo_S128x20_S20_d0 : S128x20.ReducesTo [0] S20
  h_S_ : 0 < S_.numel
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x20_S128x20_0_0 : ∀ a, (![0, 0] : Fin 2 → Nat) a + S128x20.size a ≤ S128x20.size a
  h_S128x20 : 0 < S128x20.numel
  shapeCasts_S128x20_S128x20 : S128x20.ShapeCasts S128x20
  bitsLt_bf16_f32 : FTy.bits .bf16 < FTy.bits .f32
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x20_S5000x20_0_0 : ∀ a, (![0, 0] : Fin 2 → Nat) a + S5000x20.size a ≤ S5000x20.size a
  h_S5000x20 : 0 < S5000x20.numel
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  dot_S5000x128_S128x20_S5000x20_1_0_0_1_n_n_wf : DotDims.WF S5000x128 S128x20 S5000x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x20.size a ≤ S128x20.size a
  hwx0_5 : ∀ i : grid0.Coords, EltTy.bits .f32 = 32 ∨ (Rect.block (s := S128x20) S128x20.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x20.size a ≤ S100000x20.size a
  hwx0_6 : ∀ i : grid0.Coords, EltTy.bits .f32 = 32 ∨ (Rect.block (s := S100000x20) S5000x20.size (cc0_transform_6 i) (hinb0_6 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x20_S5000x20_1_0_0_1_n_n : DotDims S5000x128 S128x20 S5000x20 where
  lhsContracting := [1]
  rhsContracting := [0]
  lhsNonContracting := [0]
  rhsNonContracting := [1]
  lhsBatch := []
  rhsBatch := []
  wf := dot_S5000x128_S128x20_S5000x20_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S128x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S5000x20.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S128x20 : Shape := ⟨2, ![128, 20]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S20 : Shape := ⟨1, ![20]⟩
abbrev S1x20 : Shape := ⟨2, ![1, 20]⟩
abbrev S100000x20 : Shape := ⟨2, ![100000, 20]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x20, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .i32⟩
  | .hbm, ⟨11, _⟩ => ⟨S625000, .i32⟩
  | .hbm, ⟨12, _⟩ => ⟨S625000, .i1⟩
  | .hbm, ⟨13, _⟩ => ⟨S_, .i32⟩
  | .hbm, ⟨14, _⟩ => ⟨S625000, .i32⟩
  | .hbm, ⟨15, _⟩ => ⟨S625000, .i32⟩
  | .hbm, ⟨16, _⟩ => ⟨S625000, .i32⟩
  | .hbm, ⟨17, _⟩ => ⟨S625000x1, .i32⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S_, .f32⟩
  | .hbm, ⟨24, _⟩ => ⟨S625000, .f32⟩
  | .hbm, ⟨25, _⟩ => ⟨S_, .f32⟩
  | .hbm, ⟨26, _⟩ => ⟨S100000, .f32⟩
  | .hbm, ⟨27, _⟩ => ⟨S625000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S128x20, .f32⟩
  | .hbm, ⟨52, _⟩ => ⟨S_, .f32⟩
  | .hbm, ⟨53, _⟩ => ⟨S20, .f32⟩
  | .hbm, ⟨54, _⟩ => ⟨S1x20, .f32⟩
  | .hbm, ⟨55, _⟩ => ⟨S1x20, .f32⟩
  | .hbm, ⟨56, _⟩ => ⟨S_, .f32⟩
  | .hbm, ⟨57, _⟩ => ⟨S1x20, .f32⟩
  | .hbm, ⟨58, _⟩ => ⟨S1x20, .f32⟩
  | .hbm, ⟨59, _⟩ => ⟨S128x20, .f32⟩
  | .hbm, ⟨60, _⟩ => ⟨S128x20, .f32⟩
  | .hbm, ⟨61, _⟩ => ⟨S100000x20, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  reducesTo_S128x20_S20_d0 : S128x20.ReducesTo [0] S20
  bcast_S20_S1x20_1 : S20.BroadcastsInDim S1x20 (![1] : Fin 1 → Fin S1x20.rank)
  bcast_S_S1x20 : S_.BroadcastsInDim S1x20 (![] : Fin 0 → Fin S1x20.rank)
  bcast_S1x20_S128x20_0_1 : S1x20.BroadcastsInDim S128x20 (![0, 1] : Fin 2 → Fin S128x20.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []
  dot_S100000x128_S128x20_S100000x20_1_0_0_1_n_n_wf : DotDims.WF S100000x128 S128x20 S100000x20 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x20_S100000x20_1_0_0_1_n_n : DotDims S100000x128 S128x20 S100000x20 where
  lhsContracting := [1]
  rhsContracting := [0]
  lhsNonContracting := [0]
  rhsNonContracting := [1]
  lhsBatch := []
  rhsBatch := []
  wf := dot_S100000x128_S128x20_S100000x20_1_0_0_1_n_n_wf

class Facts : Prop extends Facts₀ where

variable [Facts]
-- ==== Proof.HeadSpec.lean ====
/-
  The classifier head that follows neighbour aggregation, as ONE function of its arrays, entry by entry, over the
  extended reals. A node `r` has its own features `x r ·` and its aggregated neighbour features `a r ·`
  (128 coordinates each). With weights `wl`, `wr` (128 × 128), a bias `b` and a class matrix `wn` (128 × 20):

      hidden r c = (Σ_k a r k · wl k c + b c) + Σ_k x r k · wr k c
      rowLen r   = max (√(Σ_j (hidden r j)²)) ε            -- the row's Euclidean length, floored at ε
      score r q  = Σ_k (hidden r k / rowLen r) · wn k q

  every sum over the 128 feature coordinates, `ε` the single-precision word `0x2B8CBCCC` kept as a word (it is
  the same word on both sides of the comparison and is never evaluated).

  The scores of node `r` read ROW `r` of `x` and of `a` and nothing else of them (`score_congr`): this is what lets
  a block of rows be computed from the block alone, and it is the only fact about the function used later.
-/
import Idealize.ShloMosaic.PureOps.Ideal
import Idealize.ShloMosaic.Lib.ValueIdx

noncomputable section

namespace Cert.SageHead

open Idealize.ShloMosaic Idealize.ShloMosaic.ValueIdx

variable {n n' : ℕ}

/-- The hidden feature `c` of node `r`: neighbours through `wl`, plus the bias, plus the node itself through `wr`
    (added in this order). -/
def hidden (x a : (⟨2, ![n, 128]⟩ : Shape).Idx → EReal) (wl wr : (⟨2, ![128, 128]⟩ : Shape).Idx → EReal)
    (b : Fin 128 → EReal) (r : Fin n) (c : Fin 128) : EReal :=
  (∑ k : Fin 128, a (ix2 r k) * wl (ix2 k c) + b c) + ∑ k : Fin 128, x (ix2 r k) * wr (ix2 k c)

/-- The Euclidean length of a 128-vector, floored at `ε`. -/
def rowLen (h : Fin 128 → EReal) : EReal :=
  max (Ideal.sqrt (∑ j : Fin 128, h j * h j)) (Ideal.ofBits .f32 0x2B8CBCCC#32)

/-- The score of class `q` for node `r`: the length-normalised hidden vector against column `q` of `wn`. -/
def score (x a : (⟨2, ![n, 128]⟩ : Shape).Idx → EReal) (wl wr : (⟨2, ![128, 128]⟩ : Shape).Idx → EReal)
    (b : Fin 128 → EReal) (wn : (⟨2, ![128, 20]⟩ : Shape).Idx → EReal) (r : Fin n) (q : Fin 20) : EReal :=
  ∑ k : Fin 128, Ideal.div (hidden x a wl wr b r k) (rowLen (hidden x a wl wr b r)) * wn (ix2 k q)

/-- The hidden features of a node depend on its own rows only: two families of arrays that agree on row `r` of the
    one and row `r'` of the other (and on the weights and bias) give the same hidden features there. -/
theorem hidden_congr {x a : (⟨2, ![n, 128]⟩ : Shape).Idx → EReal} {x' a' : (⟨2, ![n', 128]⟩ : Shape).Idx → EReal}
    {wl wr wl' wr' : (⟨2, ![128, 128]⟩ : Shape).Idx → EReal} {b b' : Fin 128 → EReal} {r : Fin n} {r' : Fin n'}
    (hx : ∀ k : Fin 128, x (ix2 r k) = x' (ix2 r' k)) (ha : ∀ k : Fin 128, a (ix2 r k) = a' (ix2 r' k))
    (hwl : ∀ k c : Fin 128, wl (ix2 k c) = wl' (ix2 k c)) (hwr : ∀ k c : Fin 128, wr (ix2 k c) = wr' (ix2 k c))
    (hb : ∀ c : Fin 128, b c = b' c) (c : Fin 128) :
    hidden x a wl wr b r c = hidden x' a' wl' wr' b' r' c := by
  unfold hidden
  rw [hb c]
  refine congrArg₂ (· + ·) (congrArg (· + b' c) (Finset.sum_congr rfl fun k _ => ?_)) (Finset.sum_congr rfl fun k _ => ?_)
  · rw [ha k, hwl k c]
  · rw [hx k, hwr k c]

/-- So do its scores, which also read column `q` of the class matrix only. -/
theorem score_congr {x a : (⟨2, ![n, 128]⟩ : Shape).Idx → EReal} {x' a' : (⟨2, ![n', 128]⟩ : Shape).Idx → EReal}
    {wl wr wl' wr' : (⟨2, ![128, 128]⟩ : Shape).Idx → EReal} {b b' : Fin 128 → EReal}
    {wn wn' : (⟨2, ![128, 20]⟩ : Shape).Idx → EReal} {r : Fin n} {r' : Fin n'} {q q' : Fin 20}
    (hx : ∀ k : Fin 128, x (ix2 r k) = x' (ix2 r' k)) (ha : ∀ k : Fin 128, a (ix2 r k) = a' (ix2 r' k))
    (hwl : ∀ k c : Fin 128, wl (ix2 k c) = wl' (ix2 k c)) (hwr : ∀ k c : Fin 128, wr (ix2 k c) = wr' (ix2 k c))
    (hb : ∀ c : Fin 128, b c = b' c) (hwn : ∀ k : Fin 128, wn (ix2 k q) = wn' (ix2 k q')) :
    score x a wl wr b wn r q = score x' a' wl' wr' b' wn' r' q' := by
  have hh : hidden x a wl wr b r = hidden x' a' wl' wr' b' r' := funext (hidden_congr hx ha hwl hwr hb)
  unfold score
  rw [hh]
  exact Finset.sum_congr rfl fun k _ => by rw [hwn k]

/-- The whole score array of the 100000 nodes, as a function of an array index. -/
def scores (x a : (⟨2, ![100000, 128]⟩ : Shape).Idx → EReal) (wl wr : (⟨2, ![128, 128]⟩ : Shape).Idx → EReal)
    (b : Fin 128 → EReal) (wn : (⟨2, ![128, 20]⟩ : Shape).Idx → EReal) : (⟨2, ![100000, 20]⟩ : Shape).Idx → EReal :=
  fun i => score x a wl wr b wn ⟨(i 0).val, idx2_lt0 i⟩ ⟨(i 1).val, idx2_lt1 i⟩

/-- At the index of node `r` and class `q` it is that score. -/
theorem scores_ix2 (x a : (⟨2, ![100000, 128]⟩ : Shape).Idx → EReal) (wl wr : (⟨2, ![128, 128]⟩ : Shape).Idx → EReal)
    (b : Fin 128 → EReal) (wn : (⟨2, ![128, 20]⟩ : Shape).Idx → EReal) (r : Fin 100000) (q : Fin 20) :
    scores x a wl wr b wn (ix2 r q) = score x a wl wr b wn r q := rfl

end Cert.SageHead

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.BlockScores.lean ====
/-
  What the kernel body computes from one block of 5000 nodes, read at an entry.

  The body's one stored value is, as pure arithmetic over the six loaded blocks (own features `v0`, aggregated
  neighbour features `v1`, the weights `v3`, `v6`, the bias row `v4`, the class matrix `v7`): the product of the
  length-normalised hidden block with the class matrix. Over the extended reals a change of float format is the
  identity and a matrix product into a zero accumulator is the plain sum of products, so at entry (p, q) it is exactly
  `SageHead.score` of the six blocks at node `p` (within the block) and class `q`: `stored_apply`.

  The steps, innermost first: a matrix product read at an entry is the sum over the contracted coordinate
  (`featProduct_apply`, `classProduct_apply`); the hidden block at (p, c) (`hiddenBlock_apply`); the sum of a row's
  squares (`laneSum_apply`), kept as a 5000 × 1 column, square-rooted, floored at ε and spread back along the row
  (`lenBlock_apply`).
-/
import proofs.«139453_j1176821039655_1_alg».proof.Proof.Gen.KernelIdeal.Skeleton
import proofs.«139453_j1176821039655_1_alg».proof.Proof.HeadSpec
import proofs.«139453_j1176821039655_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The two matrix products at an entry -/

/-- In the 5000 × 128 by 128 × 128 product the left operand is read on the output's row … -/
theorem featLhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … at the contracted coordinate; -/
theorem featLhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted coordinate … -/
theorem featRhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … on the output's column. -/
theorem featRhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A 5000 × 128 block times a 128 × 128 weight matrix, into zero: entry (p, c) is `Σ_k l p k · w k c`. -/
theorem featProduct_apply (l : FVec Ideal S5000x128 .bf16) (w : FVec Ideal S128x128 .bf16) (p : Fin 5000) (c : Fin 128) :
    matmul dot_S5000x128_S128x128_S5000x128_1_0_0_1_n_n none l w (constant (F := Ideal) S5000x128 .f32 0x00000000#32) (ix2 p c)
      = ∑ k : Fin 128, l (ix2 p k) * w (ix2 k c) := by
  refine (Ideal.matmul_constant_zero_apply dot_S5000x128_S128x128_S5000x128_1_0_0_1_n_n none l w (ix2 p c)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p c) ((contrEquiv1 dot_S5000x128_S128x128_S5000x128_1_0_0_1_n_n 128 rfl rfl).symm k) = ix2 p k :=
    funext fun a => Fin.ext (by
      match a with
      | ⟨0, _⟩ => exact featLhs_row _ _
      | ⟨1, _⟩ => exact (featLhs_col _ _).trans hk)
  have er : dot_S5000x128_S128x128_S5000x128_1_0_0_1_n_n.rhsIdx (ix2 p c) ((contrEquiv1 dot_S5000x128_S128x128_S5000x128_1_0_0_1_n_n 128 rfl rfl).symm k) = ix2 k c :=
    funext fun a => Fin.ext (by
      match a with
      | ⟨0, _⟩ => exact (featRhs_row _ _).trans hk
      | ⟨1, _⟩ => exact featRhs_col _ _)
  rw [el, er]

/-- The same four facts for the 5000 × 128 by 128 × 20 product. -/
theorem classLhs_row (i : S5000x20.Idx) (q : dot_S5000x128_S128x20_S5000x20_1_0_0_1_n_n.contr.Idx) :
    (dot_S5000x128_S128x20_S5000x20_1_0_0_1_n_n.lhsIdx i q 0).val = (i 0).val := by
  unfold DotDims.lhsIdx
  rw [dif_neg (show ¬(0 : Fin S5000x128.rank) ∈ dot_S5000x128_S128x20_S5000x20_1_0_0_1_n_n.lhsBatch by decide),
    dif_pos (show (0 : Fin S5000x128.rank) ∈ dot_S5000x128_S128x20_S5000x20_1_0_0_1_n_n.lhsNonContracting by decide)]
  rfl
theorem classLhs_col (i : S5000x20.Idx) (q : dot_S5000x128_S128x20_S5000x20_1_0_0_1_n_n.contr.Idx) :
    (dot_S5000x128_S128x20_S5000x20_1_0_0_1_n_n.lhsIdx i q 1).val = (q ⟨0, by decide⟩).val :=
  dot_S5000x128_S128x20_S5000x20_1_0_0_1_n_n.lhsIdx_val_of_single rfl i q
theorem classRhs_row (i : S5000x20.Idx) (q : dot_S5000x128_S128x20_S5000x20_1_0_0_1_n_n.contr.Idx) :
    (dot_S5000x128_S128x20_S5000x20_1_0_0_1_n_n.rhsIdx i q 0).val = (q ⟨0, by decide⟩).val :=
  dot_S5000x128_S128x20_S5000x20_1_0_0_1_n_n.rhsIdx_val_of_single rfl i q
theorem classRhs_col (i : S5000x20.Idx) (q : dot_S5000x128_S128x20_S5000x20_1_0_0_1_n_n.contr.Idx) :
    (dot_S5000x128_S128x20_S5000x20_1_0_0_1_n_n.rhsIdx i q 1).val = (i 1).val := by
  unfold DotDims.rhsIdx
  rw [dif_neg (show ¬(1 : Fin S128x20.rank) ∈ dot_S5000x128_S128x20_S5000x20_1_0_0_1_n_n.rhsBatch by decide),
    dif_pos (show (1 : Fin S128x20.rank) ∈ dot_S5000x128_S128x20_S5000x20_1_0_0_1_n_n.rhsNonContracting by decide)]
  rfl

/-- A 5000 × 128 block times the 128 × 20 class matrix, into zero: entry (p, q) is `Σ_k l p k · w k q`. -/
theorem classProduct_apply (l : FVec Ideal S5000x128 .bf16) (w : FVec Ideal S128x20 .bf16) (p : Fin 5000) (q : Fin 20) :
    matmul dot_S5000x128_S128x20_S5000x20_1_0_0_1_n_n none l w (constant (F := Ideal) S5000x20 .f32 0x00000000#32) (ix2 p q)
      = ∑ k : Fin 128, l (ix2 p k) * w (ix2 k q) := by
  refine (Ideal.matmul_constant_zero_apply dot_S5000x128_S128x20_S5000x20_1_0_0_1_n_n none l w (ix2 p q)).trans ?_
  rw [← Equiv.sum_comp (contrEquiv1 dot_S5000x128_S128x20_S5000x20_1_0_0_1_n_n 128 rfl rfl).symm]
  refine Finset.sum_congr rfl fun k _ => ?_
  have hk := contrEquiv1_symm_val dot_S5000x128_S128x20_S5000x20_1_0_0_1_n_n 128 rfl rfl k
  have el : dot_S5000x128_S128x20_S5000x20_1_0_0_1_n_n.lhsIdx (ix2 p q) ((contrEquiv1 dot_S5000x128_S128x20_S5000x20_1_0_0_1_n_n 128 rfl rfl).symm k) = ix2 p k :=
    funext fun a => Fin.ext (by
      match a with
      | ⟨0, _⟩ => exact classLhs_row _ _
      | ⟨1, _⟩ => exact (classLhs_col _ _).trans hk)
  have er : dot_S5000x128_S128x20_S5000x20_1_0_0_1_n_n.rhsIdx (ix2 p q) ((contrEquiv1 dot_S5000x128_S128x20_S5000x20_1_0_0_1_n_n 128 rfl rfl).symm k) = ix2 k q :=
    funext fun a => Fin.ext (by
      match a with
      | ⟨0, _⟩ => exact (classRhs_row _ _).trans hk
      | ⟨1, _⟩ => exact classRhs_col _ _)
  rw [el, er]

/-! ## The sum of a row's squares -/

/-- The sum along axis 1 of a 5000 × 128 block from the zero word: entry `p` is the plain sum of row `p`. -/
theorem laneSum_apply (v : FVec Ideal S5000x128 .f32) (h : S5000x128.Reduces [1] S5000) (hφ : FKind.Formats .f32)
    (hacc : (0x00000000#32 : BitVec 32) = FKind.add.neutral .f32 hφ) (p : Fin 5000) :
    multiReduction (F := Ideal) .add [1] S5000 v 0x00000000#32 h hφ hacc (ix1 p) = ∑ k : Fin 128, v (ix2 p k) := by
  refine (Ideal.multiReduction_add_single v 0x00000000#32 h hφ hacc (ix1 p)).trans ?_
  exact Finset.sum_congr rfl fun k _ => congrArg v (funext fun a => Fin.ext (by
    match a with | ⟨0, _⟩ => rfl | ⟨1, _⟩ => rfl))

/-! ## The body's value in three named pieces -/

/-- The hidden block as the body forms it: neighbours through the first weight matrix, plus the bias row spread over
    the 5000 rows, plus the nodes themselves through the second weight matrix. -/
def hiddenBlock (v0 v1 : Vec Ideal S5000x128 .f32) (v3 : Vec Ideal S128x128 .f32) (v4 : Vec Ideal S1x128 .f32)
    (v6 : Vec Ideal S128x128 .f32) : FVec Ideal S5000x128 .f32 :=
  addf
    (addf
      (matmul dot_S5000x128_S128x128_S5000x128_1_0_0_1_n_n none
        (truncf .bf16 (shapeCast S5000x128 v1 shapeCasts_S5000x128_S5000x128) bitsLt_bf16_f32) (truncf .bf16 v3 bitsLt_bf16_f32)
        (constant S5000x128 .f32 0x00000000#32))
      (broadcastTo S5000x128 (shapeCast S1x128 v4 shapeCasts_S1x128_S1x128) broadcasts_S1x128_S5000x128))
    (matmul dot_S5000x128_S128x128_S5000x128_1_0_0_1_n_n none
      (truncf .bf16 v0 bitsLt_bf16_f32) (truncf .bf16 v6 bitsLt_bf16_f32) (constant S5000x128 .f32 0x00000000#32))

/-- The floored row lengths of a block, spread back along each row. -/
def lenBlock (h : FVec Ideal S5000x128 .f32) : FVec Ideal S5000x128 .f32 :=
  broadcastTo S5000x128
    (maximumf
      (sqrt (shapeCast S5000x1
        (multiReduction .add [1] S5000 (mulf h h) 0x00000000#32 reduces_S5000x128_S5000 (.inl rfl) rfl) shapeCasts_S5000_S5000x1))
      (broadcast S5000x1 (Scalar.ofBits .f32 0x2B8CBCCC#32)))
    broadcasts_S5000x1_S5000x128

/-- The stored value is the normalised hidden block times the class matrix (the body's own operations, regrouped). -/
theorem stored_eq (v0 v1 : Vec Ideal S5000x128 .f32) (v3 : Vec Ideal S128x128 .f32) (v4 : Vec Ideal S1x128 .f32)
    (v6 : Vec Ideal S128x128 .f32) (v7 : Vec Ideal S128x20 .f32) :
    k0_pay1 v0 v1 v3 v4 v6 v7
      = matmul dot_S5000x128_S128x20_S5000x20_1_0_0_1_n_n none
          (truncf .bf16 (divf (hiddenBlock v0 v1 v3 v4 v6) (lenBlock (hiddenBlock v0 v1 v3 v4 v6))) bitsLt_bf16_f32)
          (truncf .bf16 (shapeCast S128x20 v7 shapeCasts_S128x20_S128x20) bitsLt_bf16_f32)
          (constant S5000x20 .f32 0x00000000#32) := rfl

/-! ## Each piece at an entry -/

/-- The hidden block at (p, c) is the specification's hidden feature `c` of node `p` of the block. -/
theorem hiddenBlock_apply (v0 v1 : Vec Ideal S5000x128 .f32) (v3 : Vec Ideal S128x128 .f32) (v4 : Vec Ideal S1x128 .f32)
    (v6 : Vec Ideal S128x128 .f32) (p : Fin 5000) (c : Fin 128) :
    hiddenBlock v0 v1 v3 v4 v6 (ix2 p c)
      = SageHead.hidden v0 v1 v3 v6 (fun c => v4 (ix2 (0 : Fin 1) c)) p c := by
  unfold hiddenBlock SageHead.hidden
  rw [addf_apply, addf_apply, featProduct_apply, featProduct_apply, broadcastTo_1b_ab_apply, shapeCast_self, shapeCast_self]
  rfl

/-- The length block at (p, c) is the floored length of row `p`. -/
theorem lenBlock_apply (h : FVec Ideal S5000x128 .f32) (p : Fin 5000) (c : Fin 128) :
    lenBlock h (ix2 p c) = SageHead.rowLen (fun j => h (ix2 p j)) := by
  unfold lenBlock SageHead.rowLen
  rw [Cert.Keepdims.broadcastTo_a1_ab_apply]
  show max (Ideal.sqrt (shapeCast S5000x1 (multiReduction (F := Ideal) .add [1] S5000 (mulf h h) 0x00000000#32
    reduces_S5000x128_S5000 (.inl rfl) rfl) shapeCasts_S5000_S5000x1 (ix2 p (0 : Fin 1)))) (Ideal.ofBits .f32 0x2B8CBCCC#32) = _
  rw [Cert.Keepdims.shapeCast_a_a1_apply]
  refine congrArg (fun s => max (Ideal.sqrt s) (Ideal.ofBits .f32 0x2B8CBCCC#32)) ?_
  exact laneSum_apply (mulf h h) reduces_S5000x128_S5000 (.inl rfl) rfl p

/-- THE BODY'S VALUE AT AN ENTRY: the score of class `q` for node `p` of the block, from the six blocks alone. -/
theorem stored_apply (v0 v1 : Vec Ideal S5000x128 .f32) (v3 : Vec Ideal S128x128 .f32) (v4 : Vec Ideal S1x128 .f32)
    (v6 : Vec Ideal S128x128 .f32) (v7 : Vec Ideal S128x20 .f32) (p : Fin 5000) (q : Fin 20) :
    k0_pay1 v0 v1 v3 v4 v6 v7 (ix2 p q)
      = SageHead.score v0 v1 v3 v6 (fun c => v4 (ix2 (0 : Fin 1) c)) v7 p q := by
  rw [stored_eq]
  refine (classProduct_apply _ _ p q).trans ?_
  unfold SageHead.score
  refine Finset.sum_congr rfl fun k _ => ?_
  show Ideal.div (hiddenBlock v0 v1 v3 v4 v6 (ix2 p k)) (lenBlock (hiddenBlock v0 v1 v3 v4 v6) (ix2 p k))
      * shapeCast S128x20 v7 shapeCasts_S128x20_S128x20 (ix2 k q) = _
  rw [lenBlock_apply, hiddenBlock_apply, shapeCast_self]
  refine congrArg (fun L => Ideal.div _ (SageHead.rowLen L) * v7 (ix2 k q)) (funext fun j => ?_)
  exact hiddenBlock_apply v0 v1 v3 v4 v6 p j

end Cert.KernelIdeal.Body

end
-- ==== Proof.WholeArray.lean ====
/-
  From blocks to the whole score array.

  The node axis is cut into 20 blocks of 5000 rows; point `t` of the grid reads rows [5000·t, 5000·t + 5000) of the
  node features and of the aggregated features, reads the two weight matrices, the bias row and the class matrix
  whole, and writes rows [5000·t, 5000·t + 5000) of the 100000 × 20 result. Since a node's scores depend on its own
  rows only (`SageHead.score_congr`), what point `t` writes is block `t` of ONE function of the whole arrays
  (`written_eq`), the 20 blocks cover every row (`covered`), and so the result array after the run is that function
  (`result_array`).
-/
import proofs.«139453_j1176821039655_1_alg».proof.Proof.Gen.KernelIdeal.Value
import proofs.«139453_j1176821039655_1_alg».proof.Proof.BlockScores
import proofs.«139453_j1176821039655_1_alg».proof.Proof.HeadSpec
import Idealize.ShloMosaic.Lib.Pipeline.Value
import Idealize.ShloMosaic.Lib.ValueIdx

noncomputable section

namespace Cert.KernelIdeal.WholeArray

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem zeroOffset : (![0, 0] : Fin 2 → Nat) = fun _ => 0 := funext fun a => by fin_cases a <;> rfl

/-- The score array of the arrays as the block pass finds them. -/
def found (c : Dev nD) : S100000x20.Idx → EReal :=
  SageHead.scores (V m c main_arg0) (V m c main_v22) (V m c main_arg2) (V m c main_arg4)
    (fun k => (V m c main_v31 : S1x128.Idx → EReal) (ix2 (0 : Fin 1) k)) (V m c main_v30)

/-! ## Where each point's blocks sit -/

/-- Decided over the 20 points: the two row-blocked inputs move with the output along the node axis and start at
    column 0; the four whole inputs stay at block (0, 0); the output's row-block index is at most 19, its column-block 0. -/
theorem grid_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every one of the 20 row-blocks is some point's. -/
theorem grid_onto : ∀ b : Fin 20, ∃ t : Fin cfg0.N, win0_6.index t = ![b.val, 0] :=
  (by decide +kernel : ∀ b : Fin 20, ∃ t : Fin grid0.N, win0_6.index t = ![b.val, 0])

/-- The node that row `p` of point `t`'s blocks is. -/
def nodeOf (t : Fin cfg0.N) (p : Fin 5000) : Fin 100000 :=
  ⟨win0_6.index t (0 : Fin 2) * 5000 + p.val, by
    have h := (grid_facts t).2.2.2.2.2.2.2.2.2.2.2.2.1
    have hp := p.isLt
    omega⟩

/-! ## Each input block read at an entry -/

theorem read_own (c : Dev nD) (t : Fin cfg0.N) (p : Fin 5000) (k : Fin 128) :
    iblk m c 0 t (ix2 p k) = V m c main_arg0 (ix2 (nodeOf t p) k) := by
  obtain ⟨a0, a1, -⟩ := grid_facts t
  show V m c main_arg0 (((cfg0.win 0).blk t).view.emb (ix2 p k)) = V m c main_arg0 (ix2 (nodeOf t p) k)
  refine congrArg (V m c main_arg0) (funext fun a => Fin.ext ?_)
  match a with
  | ⟨0, _⟩ => show win0_0.index t (0 : Fin 2) * 5000 + 1 * p.val = win0_6.index t (0 : Fin 2) * 5000 + p.val; omega
  | ⟨1, _⟩ => show win0_0.index t (1 : Fin 2) * 128 + 1 * k.val = k.val; omega

theorem read_aggr (c : Dev nD) (t : Fin cfg0.N) (p : Fin 5000) (k : Fin 128) :
    iblk m c 1 t (ix2 p k) = V m c main_v22 (ix2 (nodeOf t p) k) := by
  obtain ⟨-, -, b0, b1, -⟩ := grid_facts t
  show V m c main_v22 (((cfg0.win 1).blk t).view.emb (ix2 p k)) = V m c main_v22 (ix2 (nodeOf t p) k)
  refine congrArg (V m c main_v22) (funext fun a => Fin.ext ?_)
  match a with
  | ⟨0, _⟩ => show win0_1.index t (0 : Fin 2) * 5000 + 1 * p.val = win0_6.index t (0 : Fin 2) * 5000 + p.val; omega
  | ⟨1, _⟩ => show win0_1.index t (1 : Fin 2) * 128 + 1 * k.val = k.val; omega

theorem read_wl (c : Dev nD) (t : Fin cfg0.N) (k j : Fin 128) :
    iblk m c 2 t (ix2 k j) = V m c main_arg2 (ix2 k j) := by
  obtain ⟨-, -, -, -, c0, c1, -⟩ := grid_facts t
  show V m c main_arg2 (((cfg0.win 2).blk t).view.emb (ix2 k j)) = V m c main_arg2 (ix2 k j)
  refine congrArg (V m c main_arg2) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

theorem read_bias (c : Dev nD) (t : Fin cfg0.N) (j : Fin 128) :
    iblk m c 3 t (ix2 (0 : Fin 1) j) = (V m c main_v31 : S1x128.Idx → EReal) (ix2 (0 : Fin 1) j) := by
  obtain ⟨-, -, -, -, -, -, d0, d1, -⟩ := grid_facts t
  show V m c main_v31 (((cfg0.win 3).blk t).view.emb (ix2 (0 : Fin 1) j)) = V m c main_v31 (ix2 (0 : Fin 1) j)
  refine congrArg (V m c main_v31) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem read_wr (c : Dev nD) (t : Fin cfg0.N) (k j : Fin 128) :
    iblk m c 4 t (ix2 k j) = V m c main_arg4 (ix2 k j) := by
  obtain ⟨-, -, -, -, -, -, -, -, e0, e1, -⟩ := grid_facts t
  show V m c main_arg4 (((cfg0.win 4).blk t).view.emb (ix2 k j)) = V m c main_arg4 (ix2 k j)
  refine congrArg (V m c main_arg4) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

theorem read_classes (c : Dev nD) (t : Fin cfg0.N) (k : Fin 128) (q : Fin 20) :
    iblk m c 5 t (ix2 k q) = V m c main_v30 (ix2 k q) := by
  obtain ⟨-, -, -, -, -, -, -, -, -, -, f0, f1, -⟩ := grid_facts t
  show V m c main_v30 (((cfg0.win 5).blk t).view.emb (ix2 k q)) = V m c main_v30 (ix2 k q)
  refine congrArg (V m c main_v30) (funext fun a => Fin.ext ?_)
  match a with
  | ⟨0, _⟩ => show win0_5.index t (0 : Fin 2) * 128 + 1 * k.val = k.val; omega
  | ⟨1, _⟩ => show win0_5.index t (1 : Fin 2) * 20 + 1 * q.val = q.val; omega

/-- Entry (p, q) of point `t`'s output block sits at node `nodeOf t p`, class `q` of the result array. -/
theorem out_entry (t : Fin cfg0.N) (p : Fin 5000) (q : Fin 20) :
    ((cfg0.win 6).blk t).view.emb (ix2 p q) = (ix2 (nodeOf t p) q : S100000x20.Idx) := by
  obtain ⟨-, -, -, -, -, -, -, -, -, -, -, -, g0, g1⟩ := grid_facts t
  refine funext fun a => Fin.ext ?_
  match a with
  | ⟨0, _⟩ => show win0_6.index t (0 : Fin 2) * 5000 + 1 * p.val = win0_6.index t (0 : Fin 2) * 5000 + p.val; omega
  | ⟨1, _⟩ => show win0_6.index t (1 : Fin 2) * 20 + 1 * q.val = q.val; omega

/-! ## What a point writes back, the cover, the array -/

/-- WHAT POINT `t` WRITES BACK is block `t` of the score array of the arrays as found. -/
theorem written_eq (c : Dev nD) (t : Fin cfg0.N) :
    (dats m 0 c).flushed 6 t = ((cfg0.win 6).blk t).view.read (Elt Ideal) (found m c) := by
  rw [Value.flushed6]
  unfold out0_6
  rw [View.canon_unit_zero zeroOffset]
  simp only [View.ld_unit_zero (S := S5000x128) zeroOffset, View.ld_unit_zero (S := S128x128) zeroOffset,
    View.ld_unit_zero (S := S1x128) zeroOffset, View.ld_unit_zero (S := S128x20) zeroOffset]
  funext j
  obtain ⟨p, q, rfl⟩ : ∃ (p : Fin 5000) (q : Fin 20), j = ix2 p q := ⟨j 0, j 1, eq_ix2 j⟩
  show k0_pay1 (iblk m c 0 t) (iblk m c 1 t) (iblk m c 2 t) (iblk m c 3 t) (iblk m c 4 t) (iblk m c 5 t) (ix2 p q)
    = found m c (((cfg0.win 6).blk t).view.emb (ix2 p q))
  rw [out_entry t p q]
  refine (Body.stored_apply (iblk m c 0 t) (iblk m c 1 t) (iblk m c 2 t) (iblk m c 3 t) (iblk m c 4 t) (iblk m c 5 t) p q).trans ?_
  unfold found
  rw [SageHead.scores_ix2]
  exact SageHead.score_congr (read_own m c t p) (read_aggr m c t p) (read_wl m c t) (read_wr m c t) (read_bias m c t)
    (read_classes m c t · q)

/-- An index of the result array is in point `t`'s block iff each coordinate is in the block's range on its axis. -/
theorem mem_block (t : Fin cfg0.N) (i : S100000x20.Idx) :
    i ∈ ((cfg0.win 6).blk t).view.set ↔ ∀ a : Fin 2, win0_6.index t a * S5000x20.size a ≤ (i a).val
      ∧ (i a).val < win0_6.index t a * S5000x20.size a + S5000x20.size a := by
  show i ∈ ((View.whole main_v32).slice (win0_6.rect t)).set ↔ _
  rw [View.set_slice_whole, Rect.mem_set_unit]
  exact Iff.rfl

/-- Every index of the result array is in the block of the point whose row-block is (row) / 5000. -/
theorem covered (i : S100000x20.Idx) :
    ∃ t : Fin cfg0.N, (cfg0.win 6).flush t = true ∧ i ∈ ((cfg0.win 6).blk t).view.set := by
  have hi0 : (i 0).val < 100000 := (i 0).isLt
  have hi1 : (i 1).val < 20 := (i 1).isLt
  obtain ⟨t, ht⟩ := grid_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 20 ≤ (i 1).val ∧ (i 1).val < win0_6.index t (1 : Fin 2) * 20 + 20
    omega

/-- THE RESULT ARRAY after the run is the score array of the arrays as found. -/
theorem result_array (c : Dev nD) : (dats m 0 c).arrAt 6 cfg0.N = found m c :=
  (dats m 0 c).arrAt_eq_of_cover 6 (found m c) (fun t _ => written_eq m c t) covered

end Cert.KernelIdeal.WholeArray

end
-- ==== Proof.HostStages.lean ====
/-
  The three arrays that host operations prepare before the node blocks are processed, as the block pass finds them.

  Both programs begin with the SAME host operations on the same arguments: the neighbour mean (gather the source rows,
  add them into the target rows, divide by the floored in-degree) and the class matrix with each column divided by
  its floored length. Nothing about those operations is needed beyond their being the same on both sides, so each
  is carried whole: the array the block pass finds is the other program's stage of the same arguments
  (`found_aggr`, `found_classes`), by unfolding the two compositions side by side and never evaluating them.
  The third prepared array is the length-128 bias re-laid as a 1 × 128 row: entry (0, k) is entry k (`found_bias_apply`).
-/
import proofs.«139453_j1176821039655_1_alg».proof.Proof.Gen.KernelIdeal.Frame
import proofs.«139453_j1176821039655_1_alg».proof.Proof.Gen.ReferenceIdeal.Read
import Idealize.ShloMosaic.Lib.StableHlo.Run
import Idealize.ShloMosaic.Lib.ValueIdx
import Idealize.ShloMosaic.Lib.ValueLayout

noncomputable section

namespace Cert.KernelIdeal.HostStages

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

set_option maxRecDepth 8192 in
set_option maxHeartbeats 2000000 in
/-- The aggregated neighbour features the block pass finds are the reference's neighbour-mean stage of the two
    arguments it is computed from (node features and edge list). -/
theorem found_aggr (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [Gen.V, Gen.hostOps0]
  after_results_simp
  rfl

set_option maxRecDepth 8192 in
set_option maxHeartbeats 2000000 in
/-- The normalised class matrix the block pass finds is the reference's column-normalisation stage of the class
    matrix argument. -/
theorem found_classes (c : Dev nD) :
    (V m c main_v30 : S128x20.Idx → EReal)
      = Cert.ReferenceIdeal.Read.val_main_v44 (F := Ideal) (m ((c : Thread nD τ).loc main_arg5)) := by
  dsimp only [Gen.V, Gen.hostOps0]
  after_results_simp
  rfl

set_option maxRecDepth 8192 in
set_option maxHeartbeats 2000000 in
/-- The bias row the block pass finds is the bias argument re-laid as one row. -/
theorem found_bias (c : Dev nD) :
    (V m c main_v31 : S1x128.Idx → EReal)
      = shapeCast S1x128 (m ((c : Thread nD τ).loc main_arg3) : S128.Idx → EReal) shapeCasts_S128_S1x128 := by
  dsimp only [Gen.V, Gen.hostOps0]
  after_results_simp
  rfl

/-- Its entry (0, k) is the bias at k. -/
theorem found_bias_apply (c : Dev nD) (k : Fin 128) :
    (V m c main_v31 : S1x128.Idx → EReal) (ix2 (0 : Fin 1) k) = (m ((c : Thread nD τ).loc main_arg3) : S128.Idx → EReal) (ix1 k) := by
  rw [found_bias]
  exact shapeCast_a_1a_apply _ _ (0 : Fin 1) k

end Cert.KernelIdeal.HostStages

end
-- ==== Proof.RefScores.lean ====
/-
  The reference program's result, entry by entry, is the specification's score array.

  Its last stage is the product of the length-normalised hidden array (100000 × 128) with the normalised class
  matrix. Reading the stages from the last one back — a product as the sum over the contracted coordinate, a row
  sum as the initial zero plus the sum over the row, each re-laying step at the index it reads — gives, at
  (r, q), exactly `SageHead.score` at node `r` and class `q`, of: the node features, the neighbour-mean stage
  (left unopened), the two weight matrices, the bias, and the normalised-class stage (left unopened).
  The only arithmetic is `0 + s = s` for the row sum's initial value.
-/
import proofs.«139453_j1176821039655_1_alg».proof.Proof.Gen.ReferenceIdeal.Read
import proofs.«139453_j1176821039655_1_alg».proof.Proof.HeadSpec
import Idealize.ShloMosaic.Lib.ValueIdx
import Idealize.ShloMosaic.PureOps.Ideal.Laws

noncomputable section

namespace Cert.ReferenceIdeal.RefScores

open Cert.ReferenceIdeal Cert.ReferenceIdeal.Read Idealize.ShloMosaic Idealize.ShloMosaic.ValueIdx

variable (x0 : (⟨S100000x128, .f32⟩ : BufTy).Contents (Elt Ideal)) (x1 : (⟨S2x625000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x20, .f32⟩ : BufTy).Contents (Elt Ideal))

/-- The hidden stage at (r, c): neighbours' mean through the first weight matrix, plus the bias, plus the node through
    the second. -/
theorem hiddenStage_apply (r : Fin 100000) (c : Fin 128) :
    val_main_v28 (F := Ideal) x0 x1 x2 x3 x4 (ix2 r c)
      = SageHead.hidden x0 (val_main_v22 (F := Ideal) x0 x1) x2 x4 (fun c => x3 (ix1 c)) r c := by
  rw [val_main_v28_apply, val_main_v26_apply, val_main_v23_apply, val_main_v25_apply, val_main_v24_apply, val_main_v27_apply]
  unfold SageHead.hidden
  have e1 : ∀ k : Fin 128, lidx_main_v23 (ix2 r c) k = ix2 r k := fun k => funext fun a => Fin.ext (by
    match a with | ⟨0, _⟩ => rfl | ⟨1, _⟩ => rfl)
  have e2 : ∀ k : Fin 128, ridx_main_v23 (ix2 r c) k = ix2 k c := fun k => funext fun a => Fin.ext (by
    match a with | ⟨0, _⟩ => rfl | ⟨1, _⟩ => rfl)
  have e3 : ∀ k : Fin 128, lidx_main_v27 (ix2 r c) k = ix2 r k := fun k => funext fun a => Fin.ext (by
    match a with | ⟨0, _⟩ => rfl | ⟨1, _⟩ => rfl)
  have e4 : ∀ k : Fin 128, ridx_main_v27 (ix2 r c) k = ix2 k c := fun k => funext fun a => Fin.ext (by
    match a with | ⟨0, _⟩ => rfl | ⟨1, _⟩ => rfl)
  have e5 : idx_main_v24 (idx_main_v25 (ix2 r c)) = ix1 c := funext fun a => Fin.ext (by
    match a with | ⟨0, _⟩ => rfl)
  simp only [e1, e2, e3, e4, e5]
  rfl

/-- The floored row length, spread along the row, at (r, c): the floored length of the hidden row `r`. -/
theorem lenStage_apply (r : Fin 100000) (c : Fin 128) :
    val_main_v35 (F := Ideal) x0 x1 x2 x3 x4 (ix2 r c)
      = SageHead.rowLen (SageHead.hidden x0 (val_main_v22 (F := Ideal) x0 x1) x2 x4 (fun c => x3 (ix1 c)) r) := by
  rw [val_main_v35_apply, val_main_v34_apply, val_main_v32_apply, val_main_v31_apply, val_main_v30_apply,
    val_main_v33_apply, val_main_cst_5_apply, val_main_cst_4_apply]
  unfold SageHead.rowLen
  have e : ∀ k : Fin 128, idx_main_v30 (idx_main_v31 (idx_main_v35 (ix2 r c))) k = ix2 r k := fun k => funext fun a => Fin.ext (by
    match a with | ⟨0, _⟩ => rfl | ⟨1, _⟩ => rfl)
  simp only [e, val_main_v29_apply, hiddenStage_apply, Ideal.maximumf_def, Ideal.hostUnary_sqrt_def, Ideal.ofBits_def,
    Ideal.mulf_def, Ideal.ofBits_zero_f32, zero_add]

/-- THE REFERENCE'S RESULT AT AN ENTRY. -/
theorem result_apply (r : Fin 100000) (q : Fin 20) :
    val_main_v45 (F := Ideal) x0 x1 x2 x3 x4 x5 (ix2 r q)
      = SageHead.score x0 (val_main_v22 (F := Ideal) x0 x1) x2 x4 (fun c => x3 (ix1 c)) (val_main_v44 (F := Ideal) x5) r q := by
  rw [val_main_v45_apply]
  unfold SageHead.score
  refine Finset.sum_congr rfl fun k _ => ?_
  have el : lidx_main_v45 (ix2 r q) k = ix2 r k := funext fun a => Fin.ext (by
    match a with | ⟨0, _⟩ => rfl | ⟨1, _⟩ => rfl)
  have er : ridx_main_v45 (ix2 r q) k = ix2 k q := funext fun a => Fin.ext (by
    match a with | ⟨0, _⟩ => rfl | ⟨1, _⟩ => rfl)
  rw [el, er, val_main_v36_apply, hiddenStage_apply, lenStage_apply]
  rfl

/-- As whole arrays. -/
theorem result_eq :
    val_main_v45 (F := Ideal) x0 x1 x2 x3 x4 x5
      = SageHead.scores x0 (val_main_v22 (F := Ideal) x0 x1) x2 x4 (fun c => x3 (ix1 c)) (val_main_v44 (F := Ideal) x5) := by
  funext i
  obtain ⟨r, q, rfl⟩ : ∃ (r : Fin 100000) (q : Fin 20), i = ix2 r q := ⟨i 0, i 1, eq_ix2 i⟩
  exact result_apply x0 x1 x2 x3 x4 x5 r q

end Cert.ReferenceIdeal.RefScores

end
-- ==== Proof.lean ====
/-
  A graph-convolution classifier head, computed block by block, against the same head computed on whole arrays.

  Both programs first form, by the same host operations, the mean of each node's in-neighbours' feature rows
  (`aggr`) and the class matrix with each column divided by its floored Euclidean length (`wn`). Then, for node
  `r` and class `q`,

      hidden r c = (Σ_k aggr r k · W_l k c + b c) + Σ_k x r k · W_r k c
      score r q  = Σ_k (hidden r k / max (√(Σ_j (hidden r j)²)) ε) · wn k q .

  One program evaluates this on the 100000 nodes at once; the other on 20 blocks of 5000 nodes, with its matrix
  products taken through a narrower float format. Over the extended reals a change of format is the identity, a
  product into a zero accumulator is the plain sum of products and a row sum from zero is the plain sum, so both end
  with the same array (`SageHead.scores`, Proof/HeadSpec.lean), entry by entry, with the SAME operations in the same
  order: no algebraic law beyond `0 + s = s` is used and the finiteness of the inputs is never needed.

  The pieces: the block pass's stored value at an entry (Proof/BlockScores.lean); the 20 blocks assembled into the
  result array, a node's scores depending on its own rows only (Proof/WholeArray.lean); the arrays the host
  operations prepared, identified with the other program's stages and never opened (Proof/HostStages.lean); the
  whole-array program read stage by stage (Proof/RefScores.lean). Here: the two results are one array, and the five
  claims.
-/
import proofs.«139453_j1176821039655_1_alg».proof.Defs
import proofs.«139453_j1176821039655_1_alg».proof.Proof.Gen.Kernel
import proofs.«139453_j1176821039655_1_alg».proof.Proof.Gen.Kernel.Frame
import proofs.«139453_j1176821039655_1_alg».proof.Proof.Gen.KernelIdeal
import proofs.«139453_j1176821039655_1_alg».proof.Proof.Gen.KernelIdeal.Frame
import proofs.«139453_j1176821039655_1_alg».proof.Proof.Gen.KernelIdeal.Value
import proofs.«139453_j1176821039655_1_alg».proof.Proof.Gen.ReferenceIdeal
import proofs.«139453_j1176821039655_1_alg».proof.Proof.Gen.ReferenceIdeal.Run
import proofs.«139453_j1176821039655_1_alg».proof.Proof.Gen.ReferenceIdeal.Read
import proofs.«139453_j1176821039655_1_alg».proof.Proof.Gen.Pre_finite_inputs
import proofs.«139453_j1176821039655_1_alg».proof.Proof.HeadSpec
import proofs.«139453_j1176821039655_1_alg».proof.Proof.WholeArray
import proofs.«139453_j1176821039655_1_alg».proof.Proof.HostStages
import proofs.«139453_j1176821039655_1_alg».proof.Proof.RefScores
import Idealize.ShloMosaic.Adequacy
import Idealize.ShloMosaic.Init

noncomputable section

namespace Cert.Proof

open Idealize.ShloMosaic Idealize.ShloMosaic.TcCoe Idealize.SL.Sem Idealize.ShloMosaic.ValueIdx

/-! ## The block pass's result is the score array of the arguments -/

section KernelSide

open Cert.KernelIdeal Cert.KernelIdeal.Gen

variable (m : (ℓ : Loc nD τ sig) → Buf (Elt Ideal) ℓ) (ρ : Dev nD → PrngReg)

/-- The score array of the six argument arrays: node features, the neighbour mean of (features, edges), the two
    weight matrices, the bias, the column-normalised class matrix. -/
def expected (c : Dev nD) : S100000x20.Idx → EReal :=
  SageHead.scores (m ((c : Thread nD τ).loc main_arg0))
    (Cert.ReferenceIdeal.Read.val_main_v22 (F := Ideal) (m ((c : Thread nD τ).loc main_arg0)) (m ((c : Thread nD τ).loc main_arg1)))
    (m ((c : Thread nD τ).loc main_arg2)) (m ((c : Thread nD τ).loc main_arg4))
    (fun k => (m ((c : Thread nD τ).loc main_arg3) : S128.Idx → EReal) (ix1 k))
    (Cert.ReferenceIdeal.Read.val_main_v44 (F := Ideal) (m ((c : Thread nD τ).loc main_arg5)))

/-- The arrays the block pass finds are the arguments, untouched, and the three prepared arrays: so its score array
    is the arguments'. -/
theorem found_eq (c : Dev nD) : WholeArray.found m c = expected m c := by
  have hb : (fun k : Fin 128 => (V m c main_v31 : S1x128.Idx → EReal) (ix2 (0 : Fin 1) k))
      = fun k => (m ((c : Thread nD τ).loc main_arg3) : S128.Idx → EReal) (ix1 k) :=
    funext (HostStages.found_bias_apply m c)
  unfold WholeArray.found expected
  rw [hb, V_main_arg0 m c, V_main_arg2 m c, V_main_arg4 m c, HostStages.found_aggr m c, HostStages.found_classes m c]

/-- The block program's run, its result named. -/
theorem kernel_run : θ_run defs (onTc (τ := τ) (main (F := Ideal))) ⟨m, fun _ => 0, ρ⟩ fun r => ∀ c : Dev nD,
      r.2.mem ((c : Thread nD τ).loc main_v32) = expected m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono
    (fun r h c => ⟨(h c).1.trans ((WholeArray.result_array m c).trans (found_eq m c)), (h c).2⟩)
    (Cert.KernelIdeal.Value.run_blocks m ρ)

end KernelSide

/-! ## The claims -/

theorem frame_k : Cert.frame_Kernel := fun m ρ _ => Cert.Kernel.Gen.frame m ρ

theorem frame_ki : Cert.frame_KernelIdeal := fun m ρ _ => Cert.KernelIdeal.Gen.frame m ρ

/-- The whole-array program has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the block program was idealised. -/
theorem preserves : Cert.preserves_Kernel_KernelIdeal := trivial

/-- From memories that agree on the six arguments both programs end with the score array of those arguments. -/
theorem algebraic : Cert.algebraic_KernelIdeal_ReferenceIdeal := by
  intro m ρ m' ρ' _ hagree
  refine ⟨fun c => expected m c, kernel_run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v45_eq, Cert.ReferenceIdeal.RefScores.result_eq]
  obtain ⟨h0, h1, h2, h3, h4, h5⟩ := hagree c
  rw [h0, h1, h2, h3, h4, h5]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
